-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S8192 : Shape := ⟨1, ![8192]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel

variable [Facts]

def fn {F : FTy → Type} [FloatOps F] (main_arg0 : FVec F S8192x4096 .f32) (main_arg1 : IVec S8192 32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  main_v3
-- ==== Kernel.lean ====
abbrev S8192x4096 : Shape := ⟨2, ![8192, 4096]⟩
abbrev S8192 : Shape := ⟨1, ![8192]⟩
abbrev S8192x1 : Shape := ⟨2, ![8192, 1]⟩
abbrev S256x1 : Shape := ⟨2, ![256, 1]⟩
abbrev S256x4096 : Shape := ⟨2, ![256, 4096]⟩

abbrev nBuf : Space → Nat
  | .hbm => 4
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S8192, .i32⟩
  | .hbm, ⟨2, _⟩ => ⟨S8192x1, .i32⟩
  | .hbm, ⟨3, _⟩ => ⟨S8192x4096, .f32⟩
  | .local _ .vmem, ⟨0, _⟩ => ⟨S256x1, .i32⟩
  | .local _ .vmem, ⟨1, _⟩ => ⟨S256x1, .i32⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S8192_S8192x1 : S8192.ShapeCasts S8192x1
  iota_S256x4096_d1_w32 : S256x4096.Iotas .tc 32 [1]
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x4096 : S256x1.Broadcasts S256x4096
  inb_S256x4096_S256x4096_0_0 : ∀ a, (![0, 0] : Fin 2 → Nat) a + S256x4096.size a ≤ S256x4096.size a
  h_S256x4096 : 0 < S256x4096.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1.size a ≤ S8192x1.size a
  hwx0_0 : ∀ i : grid0.Coords, EltTy.bits .i32 = 32 ∨ (Rect.block (s := S8192x1) S256x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S8192x4096.size a
  hwx0_1 : ∀ i : grid0.Coords, EltTy.bits .f32 = 32 ∨ (Rect.block (s := S8192x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S8192x4096.size a
  hwx0_2 : ∀ i : grid0.Coords, EltTy.bits .f32 = 32 ∨ (Rect.block (s := S8192x4096) S256x4096.size (cc0_transform_2 i) (hinb0_2 i)).WholeWords (EltTy.packing .f32)

variable [Facts₀]

abbrev win0_0 : Pipeline.Window sig grid0 :=
  Pipeline.Window.ofSpec (Memref.whole main_v0) S256x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S8192 : Shape := ⟨1, ![8192]⟩
abbrev S4096 : Shape := ⟨1, ![4096]⟩
abbrev S1x4096 : Shape := ⟨2, ![1, 4096]⟩
abbrev S8192x1 : Shape := ⟨2, ![8192, 1]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192, .i32⟩
  | .hbm, ⟨2, _⟩ => ⟨S4096, .i32⟩
  | .hbm, ⟨3, _⟩ => ⟨S1x4096, .i32⟩
  | .hbm, ⟨4, _⟩ => ⟨S8192x1, .i32⟩
  | .hbm, ⟨5, _⟩ => ⟨S8192x4096, .i32⟩
  | .hbm, ⟨6, _⟩ => ⟨S8192x4096, .i32⟩
  | .hbm, ⟨7, _⟩ => ⟨S8192x4096, .i1⟩
  | .hbm, ⟨8, _⟩ => ⟨S_, .f32⟩
  | .hbm, ⟨9, _⟩ => ⟨S8192x4096, .f32⟩
  | .hbm, ⟨10, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_call0_v0 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S8192_S8192x1_0 : S8192.BroadcastsInDim S8192x1 (![0] : Fin 1 → Fin S8192x1.rank)
  bcast_S1x4096_S8192x4096_0_1 : S1x4096.BroadcastsInDim S8192x4096 (![0, 1] : Fin 2 → Fin S8192x4096.rank)
  bcast_S8192x1_S8192x4096_0_1 : S8192x1.BroadcastsInDim S8192x4096 (![0, 1] : Fin 2 → Fin S8192x4096.rank)
  bcast_S_S8192x4096 : S_.BroadcastsInDim S8192x4096 (![] : Fin 0 → Fin S8192x4096.rank)

variable [Facts₀]

class Facts : Prop extends Facts₀ where

variable [Facts]
-- ==== Proof.RowPrefix.lean ====
/-
  The function both programs compute. For an image array `img` of 8192 rows by 4096 columns and a bound `pos i` for
  each row, the result keeps entry `(i, j)` of `img` when the column number `j` is below the row's bound — both read as
  signed 32-bit integers — and is the zero word otherwise: each row keeps a prefix of itself and is zero after it.
  Nothing here depends on what a float is: the entry is either copied or replaced by one fixed word.
-/
import Idealize.ShloMosaic.Lib.ValueIdx

noncomputable section

namespace Cert.RowPrefix

open Idealize.ShloMosaic Idealize.ShloMosaic.ValueIdx

variable {F : FTy → Type} [FloatOps F]

/-- Row `i` keeps its entries in the columns `j` with `j < pos i` (signed comparison of 32-bit words) and is zero in
    the others. -/
def keepPrefix (img : (⟨2, ![8192, 4096]⟩ : Shape).Idx → F .f32) (pos : (⟨1, ![8192]⟩ : Shape).Idx → BitVec 32) :
    (⟨2, ![8192, 4096]⟩ : Shape).Idx → F .f32 :=
  fun i => Scalar.select (IntOp.cmpi .slt (BitVec.ofNat 32 (i 1).val) (pos (ix1 (i 0)))) (img i)
    (FloatOps.ofBits .f32 0x00000000#32)

end Cert.RowPrefix

end
-- ==== Proof.RefPrefix.lean ====
/-
  The reference builds the column numbers 0 … 4095 once, spreads them over all rows, spreads each row's bound over all
  columns, compares the two arrays entry by entry and selects between the image and a zero array. Read at one index
  `(i, j)` every spreading step just forgets or repeats a coordinate, so the comparison is `j < pos i` and the result is
  `keepPrefix` there.
-/
import proofs.«141234_g22445499089120_fold_wed_c4_204_2_alg».proof.Proof.Gen.ReferenceIdeal.Read
import proofs.«141234_g22445499089120_fold_wed_c4_204_2_alg».proof.Proof.RowPrefix

noncomputable section

namespace Cert.RowPrefix

open Idealize.ShloMosaic Idealize.ShloMosaic.ValueIdx
open Cert.ReferenceIdeal Cert.ReferenceIdeal.Read

variable {F : FTy → Type} [FloatOps F]

/-- The reference's last stage is `keepPrefix` of its two arguments: at index `(i, j)` the spread column numbers read
    `j`, the spread bounds read `pos i`, and the zero array reads the zero word. -/
theorem reference_eq (img : (⟨S8192x4096, .f32⟩ : BufTy).Contents (Elt F)) (pos : (⟨S8192, .i32⟩ : BufTy).Contents (Elt F)) :
    val_main_v6 (F := F) img pos = keepPrefix img pos := by
  funext i
  rw [val_main_v6_apply, val_main_v5_apply, val_main_v3_apply, val_main_v1_apply, val_main_v0_apply,
    val_main_v4_apply, val_main_v2_apply, val_main_call0_v0_apply, val_main_cst_apply]
  have e : idx_main_v2 (idx_main_v4 i) = ix1 (i 0) := funext fun a => match a with | ⟨0, _⟩ => rfl
  rw [e]
  rfl

end Cert.RowPrefix

end
-- ==== Proof.BodyPrefix.lean ====
/-
  One grid step works on a block of 256 rows: it loads the rows' bounds as a column [256, 1], spreads that column over
  the 4096 columns, compares it with the column numbers of a [256, 4096] block and selects between the loaded image
  block and zero. At local index `(p, q)` the column number is `q` and the spread column reads the bound of local row
  `p`, so the stored value is: the image entry if `q` is below that bound, zero otherwise.
-/
import proofs.«141234_g22445499089120_fold_wed_c4_204_2_alg».proof.Proof.Gen.KernelIdeal.Skeleton
import Idealize.ShloMosaic.Lib.ValueIdx
import Idealize.ShloMosaic.Lib.Pipeline.Value

noncomputable section

namespace Cert.RowPrefix

open Idealize.ShloMosaic Idealize.ShloMosaic.ValueIdx
open Cert.KernelIdeal Cert.KernelIdeal.Gen

variable {F : FTy → Type} [FloatOps F]

/-- The bound column [256, 1] spread over 4096 columns reads, at `(p, q)`, the column's entry of row `p`. -/
theorem spread_apply (col : IVec S256x1 32) (p : Fin 256) (q : Fin 4096) :
    broadcastTo S256x4096 col broadcasts_S256x1_S256x4096 (ix2 p q) = col (ix2 p 0) :=
  broadcastTo_apply col broadcasts_S256x1_S256x4096 (ix2 p q) (ix2 p 0) (fun a => match a with
    | ⟨0, _⟩ => by show p.val = if (256 : Nat) = 1 then 0 else p.val; rw [if_neg (by decide)]
    | ⟨1, _⟩ => by show 0 = if (1 : Nat) = 1 then 0 else q.val; rw [if_pos rfl])

/-- What one grid step stores at local index `(p, q)`, from the loaded bound column and image block. -/
theorem body_apply (bounds : Vec F S256x1 .i32) (blk : Vec F S256x4096 .f32) (p : Fin 256) (q : Fin 4096) :
    k0_pay1 bounds blk (ix2 p q)
      = Scalar.select (IntOp.cmpi .slt (BitVec.ofNat 32 q.val) (bounds (ix2 p 0))) (blk (ix2 p q))
          (FloatOps.ofBits .f32 0x00000000#32) := by
  unfold k0_pay1
  show Scalar.select (IntOp.cmpi .slt (iota .tc S256x4096 32 [1] iota_S256x4096_d1_w32 (ix2 p q))
      (broadcastTo S256x4096 (shapeCast S256x1 bounds shapeCasts_S256x1_S256x1) broadcasts_S256x1_S256x4096 (ix2 p q)))
      (blk (ix2 p q)) _ = _
  rw [iota_single_apply, spread_apply, shapeCast_self]
  rfl

end Cert.RowPrefix

end
-- ==== Proof.Blocks.lean ====
/-
  From grid steps to the whole array. The grid has 32 steps; step `t` reads rows 256·t … 256·t + 255 of the bound column
  and of the image, and writes the same rows of the result, all 4096 columns. The bound column [8192, 1] is the bound
  vector [8192] laid out again by the host before the launch, so its entry `(r, 0)` is the vector's entry `r`. Hence
  what step `t` writes back is exactly block `t` of `keepPrefix` of the two argument arrays; the 32 blocks cover every
  row, so after the run the result array is `keepPrefix` of the arguments, which are left as they were.
-/
import proofs.«141234_g22445499089120_fold_wed_c4_204_2_alg».proof.Proof.Gen.KernelIdeal.Value
import proofs.«141234_g22445499089120_fold_wed_c4_204_2_alg».proof.Proof.RowPrefix
import proofs.«141234_g22445499089120_fold_wed_c4_204_2_alg».proof.Proof.BodyPrefix
import Idealize.ShloMosaic.Lib.StableHlo.Run

set_option maxRecDepth 16384

noncomputable section

namespace Cert.RowPrefix

open Idealize.ShloMosaic Idealize.ShloMosaic.TcCoe Idealize.SL.Sem Idealize.ShloMosaic.ValueIdx
open Idealize.ShloMosaic.StableHlo
open Cert.KernelIdeal Cert.KernelIdeal.Gen
open Idealize.ShloMosaic.Pipeline (Dat)

variable {F : FTy → Type} [FloatOps F]
variable (m : (ℓ : Loc nD τ sig) → Buf (Elt F) ℓ) (ρ : Dev nD → PrngReg)

theorem zero_off : (![0, 0] : Fin 2 → Nat) = fun _ => 0 := funext fun a => by fin_cases a <;> rfl

/-! ## The bound column the launch finds -/

/-- When the region is entered the bound column is the bound vector laid out as [8192, 1]. -/
theorem column_eq (c : Dev nD) :
    (V m c main_v0 : S8192x1.Idx → BitVec 32)
      = shapeCast S8192x1 (m ((c : Thread nD τ).loc main_arg1)) shapeCasts_S8192_S8192x1 := by
  dsimp only [Gen.V, Gen.hostOps0]; after_results; rfl

/-- Its entry in row `r` is the vector's entry `r`: both sit at position `r` of the row-major order. -/
theorem column_apply (c : Dev nD) (r : Fin 8192) (u : Fin 1) :
    V m c main_v0 (ix2 r u) = m ((c : Thread nD τ).loc main_arg1) (ix1 r) := by
  rw [column_eq]
  refine shapeCast_apply _ _ (ix2 r u) (ix1 r) ?_
  rw [Shape.rowMajor_val_one, Shape.rowMajor_val_two]
  show r.val = r.val * 1 + u.val
  have := u.isLt
  omega

/-! ## Which rows a grid step touches -/

/-- Over the 32 steps: the bound column's block and the image's block move with the result's block along the rows, no
    block moves along the columns, and the row-block number stays below 32. -/
theorem index_facts : ∀ t : Fin cfg0.N, win0_0.index t (0 : Fin 2) = win0_2.index t (0 : Fin 2)
    ∧ win0_0.index t (1 : Fin 2) = 0
    ∧ win0_1.index t (0 : Fin 2) = win0_2.index t (0 : Fin 2)
    ∧ win0_1.index t (1 : Fin 2) = 0
    ∧ win0_2.index t (1 : Fin 2) = 0
    ∧ win0_2.index t (0 : Fin 2) ≤ 31 :=
  (by decide +kernel : ∀ t : Fin grid0.N, _)

/-- Every row block is some step's. -/
theorem index_onto : ∀ q : Fin 32, ∃ t : Fin cfg0.N, win0_2.index t = ![q.val, 0] :=
  (by decide +kernel : ∀ q : Fin 32, ∃ t : Fin grid0.N, win0_2.index t = ![q.val, 0])

/-! ## What a step writes back -/

/-- The body's stored value at a local index, without naming the coordinates. -/
theorem body_at (bounds : Vec F S256x1 .i32) (blk : Vec F S256x4096 .f32) (j : S256x4096.Idx) :
    k0_pay1 bounds blk j
      = Scalar.select (IntOp.cmpi .slt (BitVec.ofNat 32 (j 1).val) (bounds (ix2 (⟨(j 0).val, idx2_lt0 j⟩ : Fin 256) (0 : Fin 1))))
          (blk j) (FloatOps.ofBits .f32 0x00000000#32) := by
  obtain ⟨p, q, rfl⟩ : ∃ (p : Fin 256) (q : Fin 4096), j = ix2 p q := ⟨j 0, j 1, eq_ix2 j⟩
  exact body_apply bounds blk p q

/-- Step `t` writes back block `t` of `keepPrefix` of the argument arrays. -/
theorem flushed_eq (c : Dev nD) (t : Fin cfg0.N) :
    (dats m 0 c).flushed 2 t = ((cfg0.win 2).blk t).view.read (Elt F)
      (keepPrefix (m ((c : Thread nD τ).loc main_arg0)) (m ((c : Thread nD τ).loc main_arg1))) := by
  rw [Value.flushed2]
  unfold out0_2
  rw [View.canon_unit_zero zero_off]
  simp only [View.ld_unit_zero (S := S256x4096) zero_off, View.ld_unit_zero (S := S256x1) zero_off]
  obtain ⟨e00, e01, e10, e11, e21, -⟩ := index_facts t
  funext j
  show k0_pay1 (iblk m c 0 t) (iblk m c 1 t) j
    = keepPrefix (m ((c : Thread nD τ).loc main_arg0)) (m ((c : Thread nD τ).loc main_arg1)) (((cfg0.win 2).blk t).view.emb j)
  refine (body_at (F := F) (iblk m c 0 t) (iblk m c 1 t) j).trans ?_
  unfold keepPrefix
  have hcol : (((cfg0.win 2).blk t).view.emb j (1 : Fin 2)).val = (j 1).val := by
    show win0_2.index t (1 : Fin 2) * 4096 + 1 * (j 1).val = (j 1).val
    omega
  have hbound : iblk m c 0 t (ix2 (⟨(j 0).val, idx2_lt0 j⟩ : Fin 256) (0 : Fin 1))
      = m ((c : Thread nD τ).loc main_arg1) (ix1 (((cfg0.win 2).blk t).view.emb j (0 : Fin 2))) := by
    show V m c main_v0 (((cfg0.win 0).blk t).view.emb (ix2 (⟨(j 0).val, idx2_lt0 j⟩ : Fin 256) (0 : Fin 1))) = _
    have hidx : ((cfg0.win 0).blk t).view.emb (ix2 (⟨(j 0).val, idx2_lt0 j⟩ : Fin 256) (0 : Fin 1))
        = ix2 (⟨(((cfg0.win 2).blk t).view.emb j (0 : Fin 2)).val, (((cfg0.win 2).blk t).view.emb j (0 : Fin 2)).isLt⟩ : Fin 8192) (0 : Fin 1) := by
      funext a; apply Fin.ext
      match a with
      | ⟨0, _⟩ =>
        show win0_0.index t (0 : Fin 2) * 256 + 1 * (j 0).val = win0_2.index t (0 : Fin 2) * 256 + 1 * (j 0).val
        omega
      | ⟨1, _⟩ =>
        show win0_0.index t (1 : Fin 2) * 1 + 1 * 0 = 0
        omega
    rw [hidx, column_apply]
    rfl
  have himg : iblk m c 1 t j = m ((c : Thread nD τ).loc main_arg0) (((cfg0.win 2).blk t).view.emb j) := by
    show V m c main_arg0 (((cfg0.win 1).blk t).view.emb j) = _
    rw [V_main_arg0]
    refine congrArg _ (funext fun a => Fin.ext ?_)
    match a with
    | ⟨0, _⟩ =>
      show win0_1.index t (0 : Fin 2) * 256 + 1 * (j 0).val = win0_2.index t (0 : Fin 2) * 256 + 1 * (j 0).val
      omega
    | ⟨1, _⟩ =>
      show win0_1.index t (1 : Fin 2) * 4096 + 1 * (j 1).val = win0_2.index t (1 : Fin 2) * 4096 + 1 * (j 1).val
      omega
  rw [hbound, himg, hcol]

/-! ## The blocks cover the array -/

/-- An index is in step `t`'s block when each coordinate is in the block's range on its axis. -/
theorem mem_block (t : Fin cfg0.N) (i : S8192x4096.Idx) :
    i ∈ ((cfg0.win 2).blk t).view.set ↔ ∀ a : Fin 2, win0_2.index t a * S256x4096.size a ≤ (i a).val
      ∧ (i a).val < win0_2.index t a * S256x4096.size a + S256x4096.size a := by
  show i ∈ ((View.whole main_v1).slice (win0_2.rect t)).set ↔ _
  rw [View.set_slice_whole, Rect.mem_set_unit]
  exact Iff.rfl

/-- Row `r` lies in the block of the step whose row-block number is `r / 256`. -/
theorem cover (i : S8192x4096.Idx) :
    ∃ t : Fin cfg0.N, (cfg0.win 2).flush t = true ∧ i ∈ ((cfg0.win 2).blk t).view.set := by
  have hi0 : (i 0).val < 8192 := idx2_lt0 i
  have hi1 : (i 1).val < 4096 := idx2_lt1 i
  obtain ⟨t, ht⟩ := index_onto ⟨(i 0).val / 256, by omega⟩
  have q0 : win0_2.index t (0 : Fin 2) = (i 0).val / 256 := congrFun ht 0
  have q1 : win0_2.index t (1 : Fin 2) = 0 := congrFun ht 1
  refine ⟨t, flush0_2 t, ?_⟩
  rw [mem_block]
  intro a
  match a with
  | ⟨0, _⟩ =>
    show win0_2.index t (0 : Fin 2) * 256 ≤ (i 0).val ∧ (i 0).val < win0_2.index t (0 : Fin 2) * 256 + 256
    omega
  | ⟨1, _⟩ =>
    show win0_2.index t (1 : Fin 2) * 4096 ≤ (i 1).val ∧ (i 1).val < win0_2.index t (1 : Fin 2) * 4096 + 4096
    omega

/-! ## The result array after the run -/

/-- After the 32 steps the result array is `keepPrefix` of the argument arrays. -/
theorem final (c : Dev nD) :
    (dats m 0 c).arrAt 2 cfg0.N
      = keepPrefix (m ((c : Thread nD τ).loc main_arg0)) (m ((c : Thread nD τ).loc main_arg1)) :=
  (dats m 0 c).arrAt_eq_of_cover 2 _ (fun t _ => flushed_eq m c t) cover

/-- Every weakly fair execution of the kernel's program ends with the result array at `keepPrefix` of the argument
    arrays and the arguments unchanged. -/
theorem run : θ_run defs (onTc (τ := τ) (main (F := F))) ⟨m, fun _ => 0, ρ⟩ fun r => ∀ c : Dev nD,
      r.2.mem ((c : Thread nD τ).loc main_v1)
        = keepPrefix (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.RowPrefix

end
-- ==== Proof.lean ====
/-
  Keeping a prefix of every row. Both programs take an image array of 8192 rows by 4096 columns and one bound per row,
  and return the array whose entry `(i, j)` is the image's entry when `j` is below row `i`'s bound (column number and
  bound compared as signed 32-bit integers) and the zero word otherwise: `Cert.RowPrefix.keepPrefix`.

  The kernel lays the bounds out as a column, walks the rows in 32 blocks of 256, and in each block compares the column
  numbers with the spread bound column and selects between the image block and zero; the blocks cover the array
  (`Cert.RowPrefix.run`). The reference compares two whole spread arrays and selects once
  (`Cert.RowPrefix.reference_eq`). Entry by entry the two are the same choice between the same two values, so the
  results agree for any contents of the image — no arithmetic on the entries is involved, and finiteness of the image
  is never used. The idealization changed no operation, so that conjunct is trivial; the three runs terminate with the
  arguments unchanged by the generated frame certificates and the reference's generated run.
-/
import proofs.«141234_g22445499089120_fold_wed_c4_204_2_alg».proof.Defs
import proofs.«141234_g22445499089120_fold_wed_c4_204_2_alg».proof.Proof.Gen.Kernel
import proofs.«141234_g22445499089120_fold_wed_c4_204_2_alg».proof.Proof.Gen.Kernel.Skeleton
import proofs.«141234_g22445499089120_fold_wed_c4_204_2_alg».proof.Proof.Gen.Kernel.Launch
import proofs.«141234_g22445499089120_fold_wed_c4_204_2_alg».proof.Proof.Gen.Kernel.Points
import proofs.«141234_g22445499089120_fold_wed_c4_204_2_alg».proof.Proof.Gen.Kernel.Frame
import proofs.«141234_g22445499089120_fold_wed_c4_204_2_alg».proof.Proof.Gen.KernelIdeal
import proofs.«141234_g22445499089120_fold_wed_c4_204_2_alg».proof.Proof.Gen.KernelIdeal.Skeleton
import proofs.«141234_g22445499089120_fold_wed_c4_204_2_alg».proof.Proof.Gen.KernelIdeal.Launch
import proofs.«141234_g22445499089120_fold_wed_c4_204_2_alg».proof.Proof.Gen.KernelIdeal.Points
import proofs.«141234_g22445499089120_fold_wed_c4_204_2_alg».proof.Proof.Gen.KernelIdeal.Frame
import proofs.«141234_g22445499089120_fold_wed_c4_204_2_alg».proof.Proof.Gen.ReferenceIdeal
import proofs.«141234_g22445499089120_fold_wed_c4_204_2_alg».proof.Proof.Gen.Pre_finite_inputs
import proofs.«141234_g22445499089120_fold_wed_c4_204_2_alg».proof.Proof.Gen.KernelIdeal.Value
import proofs.«141234_g22445499089120_fold_wed_c4_204_2_alg».proof.Proof.Gen.ReferenceIdeal.Run
import proofs.«141234_g22445499089120_fold_wed_c4_204_2_alg».proof.Proof.Gen.ReferenceIdeal.Read
import proofs.«141234_g22445499089120_fold_wed_c4_204_2_alg».proof.Proof.RowPrefix
import proofs.«141234_g22445499089120_fold_wed_c4_204_2_alg».proof.Proof.RefPrefix
import proofs.«141234_g22445499089120_fold_wed_c4_204_2_alg».proof.Proof.BodyPrefix
import proofs.«141234_g22445499089120_fold_wed_c4_204_2_alg».proof.Proof.Blocks
import Idealize.ShloMosaic.Adequacy
import Idealize.ShloMosaic.Init

noncomputable section

namespace Cert.Proof

open Idealize.ShloMosaic Idealize.ShloMosaic.TcCoe Idealize.SL.Sem

/-- The kernel's program as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the image and the bounds, both programs end with the result array at `keepPrefix` of
    the image and the bounds. -/
theorem algebraic : Cert.algebraic_KernelIdeal_ReferenceIdeal := by
  intro m ρ m' ρ' _ hagree
  refine ⟨_, Cert.RowPrefix.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.RowPrefix.reference_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
